-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x256 : Shape := ⟨3, ![2, 1024, 256]⟩
abbrev S256x256 : Shape := ⟨2, ![256, 256]⟩
abbrev S1x256x1 : Shape := ⟨3, ![1, 256, 1]⟩
abbrev S_ : Shape := ⟨0, ![]⟩

class Facts : Prop where
  bcast_S_S2x1024x256 : S_.BroadcastsInDim S2x1024x256 (![] : Fin 0 → Fin S2x1024x256.rank)
  reducesTo_S2x1024x256_S_d0_1_2 : S2x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256x1 : S_.BroadcastsInDim S1x256x1 (![] : Fin 0 → Fin S1x256x1.rank)
  reducesTo_S1x256x1_S_d0_1_2 : S1x256x1.ReducesTo [0, 1, 2] S_

variable [Facts]

def fn {F : FTy → Type} [FloatOps F] (main_arg0 : FVec F S2x1024x256 .f32) (main_arg1 : FVec F S256x256 .f32) (main_arg2 : FVec F S1x256x1 .f32) : IVec S_ 1 :=
  let main_v0 : FVec F S2x1024x256 .f32 := Host.absf main_arg0
  let main_cst : FVec F S_ .f32 := constant S_ .f32 0x7F800000#32
  let main_v1 : FVec F S2x1024x256 .f32 := broadcastInDim S2x1024x256 ![] bcast_S_S2x1024x256 main_cst
  let main_v2 : IVec S2x1024x256 1 := cmpf .olt main_v0 main_v1
  let main_c : IVec S_ 1 := constantI S_ 1 1#1
  let main_v3 : IVec S_ 1 := (fun x v => Host.reduce IntOp.andi x v reducesTo_S2x1024x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256x1 .f32 := Host.absf main_arg2
  let main_cst_2 : FVec F S_ .f32 := constant S_ .f32 0x7F800000#32
  let main_v10 : FVec F S1x256x1 .f32 := broadcastInDim S1x256x1 ![] bcast_S_S1x256x1 main_cst_2
  let main_v11 : IVec S1x256x1 1 := cmpf .olt main_v9 main_v10
  let main_c_3 : IVec S_ 1 := constantI S_ 1 1#1
  let main_v12 : IVec S_ 1 := (fun x v => Host.reduce IntOp.andi x v reducesTo_S1x256x1_S_d0_1_2 h_S_) main_v11 main_c_3
  let main_v13 : IVec S_ 1 := andi main_v8 main_v12
  main_v13
-- ==== Kernel.lean ====
abbrev S2x1024x256 : Shape := ⟨3, ![2, 1024, 256]⟩
abbrev S256x256 : Shape := ⟨2, ![256, 256]⟩
abbrev S1x256x1 : Shape := ⟨3, ![1, 256, 1]⟩
abbrev S2048x256 : Shape := ⟨2, ![2048, 256]⟩
abbrev S1x256 : Shape := ⟨2, ![1, 256]⟩
abbrev S256 : Shape := ⟨1, ![256]⟩
abbrev S256x1 : Shape := ⟨2, ![256, 1]⟩
abbrev S256x16 : Shape := ⟨2, ![256, 16]⟩
abbrev S256x16x1 : Shape := ⟨3, ![256, 16, 1]⟩
abbrev S16x256 : Shape := ⟨2, ![16, 256]⟩
abbrev S1x16x256 : Shape := ⟨3, ![1, 16, 256]⟩
abbrev S256x16x256 : Shape := ⟨3, ![256, 16, 256]⟩

abbrev nBuf : Space → Nat
  | .hbm => 7
  | .vmem => 6
  | .smem => 0
  | _ => 0

abbrev bufTy : (tb : Table) → Fin (tcTables nBuf tb) → BufTy
  | .hbm, ⟨0, _⟩ => ⟨S2x1024x256, .f32⟩
  | .hbm, ⟨1, _⟩ => ⟨S256x256, .f32⟩
  | .hbm, ⟨2, _⟩ => ⟨S1x256x1, .f32⟩
  | .hbm, ⟨3, _⟩ => ⟨S2048x256, .f32⟩
  | .hbm, ⟨4, _⟩ => ⟨S1x256, .f32⟩
  | .hbm, ⟨5, _⟩ => ⟨S2048x256, .f32⟩
  | .hbm, ⟨6, _⟩ => ⟨S2x1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x1024x256_S2048x256 : S2x1024x256.ShapeCasts S2048x256
  shapeCasts_S1x256x1_S1x256 : S1x256x1.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  transposes_S256x256_p1_0_S256x256 : S256x256.Transposes [1, 0] S256x256
  reduces_S256x256_S256 : S256x256.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  slices_S256x256_o0_0_S256x16 : S256x256.Slices ![0, 0] S256x16
  shapeCasts_S256x16_S256x16x1 : S256x16.ShapeCasts S256x16x1
  transposes_S256x16_p1_0_S16x256 : S256x16.Transposes [1, 0] S16x256
  shapeCasts_S16x256_S1x16x256 : S16x256.ShapeCasts S1x16x256
  broadcasts_S256x16x1_S256x16x256 : S256x16x1.Broadcasts S256x16x256
  broadcasts_S1x16x256_S256x16x256 : S1x16x256.Broadcasts S256x16x256
  reduces_S256x16x256_S256x256 : S256x16x256.Reduces [1] S256x256
  slices_S256x256_o0_16_S256x16 : S256x256.Slices ![0, 16] S256x16
  slices_S256x256_o0_32_S256x16 : S256x256.Slices ![0, 32] S256x16
  slices_S256x256_o0_48_S256x16 : S256x256.Slices ![0, 48] S256x16
  slices_S256x256_o0_64_S256x16 : S256x256.Slices ![0, 64] S256x16
  slices_S256x256_o0_80_S256x16 : S256x256.Slices ![0, 80] S256x16
  slices_S256x256_o0_96_S256x16 : S256x256.Slices ![0, 96] S256x16
  slices_S256x256_o0_112_S256x16 : S256x256.Slices ![0, 112] S256x16
  slices_S256x256_o0_128_S256x16 : S256x256.Slices ![0, 128] S256x16
  slices_S256x256_o0_144_S256x16 : S256x256.Slices ![0, 144] S256x16
  slices_S256x256_o0_160_S256x16 : S256x256.Slices ![0, 160] S256x16
  slices_S256x256_o0_176_S256x16 : S256x256.Slices ![0, 176] S256x16
  slices_S256x256_o0_192_S256x16 : S256x256.Slices ![0, 192] S256x16
  slices_S256x256_o0_208_S256x16 : S256x256.Slices ![0, 208] S256x16
  slices_S256x256_o0_224_S256x16 : S256x256.Slices ![0, 224] S256x16
  slices_S256x256_o0_240_S256x16 : S256x256.Slices ![0, 240] S256x16
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S2048x256_S2x1024x256 : S2048x256.ShapeCasts S2x1024x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x256.size a
  hwx0_3 : ∀ i : grid0.Coords, EltTy.bits .f32 = 32 ∨ (Rect.block (s := S2048x256) S256x256.size (cc0_transform_3 i) (hinb0_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x1024x256 : Shape := ⟨3, ![2, 1024, 256]⟩
abbrev S256x256 : Shape := ⟨2, ![256, 256]⟩
abbrev S1x256x1 : Shape := ⟨3, ![1, 256, 1]⟩
abbrev S2048x256 : Shape := ⟨2, ![2048, 256]⟩
abbrev S2048x1x256 : Shape := ⟨3, ![2048, 1, 256]⟩
abbrev S1x256x256 : Shape := ⟨3, ![1, 256, 256]⟩
abbrev S2048x256x256 : Shape := ⟨3, ![2048, 256, 256]⟩
abbrev S_ : Shape := ⟨0, ![]⟩
abbrev S2048 : Shape := ⟨1, ![2048]⟩
abbrev S256 : Shape := ⟨1, ![256]⟩
abbrev S2048x1 : Shape := ⟨2, ![2048, 1]⟩
abbrev S1x256 : Shape := ⟨2, ![1, 256]⟩
abbrev S1x1x256 : Shape := ⟨3, ![1, 1, 256]⟩

abbrev nBuf : Space → Nat
  | .hbm => 52
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S256x256, .f32⟩
  | .hbm, ⟨2, _⟩ => ⟨S1x256x1, .f32⟩
  | .hbm, ⟨3, _⟩ => ⟨S2x1024x256, .f32⟩
  | .hbm, ⟨4, _⟩ => ⟨S2048x256, .f32⟩
  | .hbm, ⟨5, _⟩ => ⟨S256x256, .f32⟩
  | .hbm, ⟨6, _⟩ => ⟨S2048x1x256, .f32⟩
  | .hbm, ⟨7, _⟩ => ⟨S1x256x256, .f32⟩
  | .hbm, ⟨8, _⟩ => ⟨S2048x256x256, .f32⟩
  | .hbm, ⟨9, _⟩ => ⟨S2048x256x256, .f32⟩
  | .hbm, ⟨10, _⟩ => ⟨S2048x256x256, .f32⟩
  | .hbm, ⟨11, _⟩ => ⟨S2048x256x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S2048x1, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S256x256, .f32⟩
  | .hbm, ⟨26, _⟩ => ⟨S2048x256, .f32⟩
  | .hbm, ⟨27, _⟩ => ⟨S_, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S_, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S_, .f32⟩
  | .hbm, ⟨43, _⟩ => ⟨S2048x256, .f32⟩
  | .hbm, ⟨44, _⟩ => ⟨S2048x256, .f32⟩
  | .hbm, ⟨45, _⟩ => ⟨S2x1024x256, .f32⟩
  | .hbm, ⟨46, _⟩ => ⟨S_, .f32⟩
  | .hbm, ⟨47, _⟩ => ⟨S2x1024x256, .f32⟩
  | .hbm, ⟨48, _⟩ => ⟨S2x1024x256, .f32⟩
  | .hbm, ⟨49, _⟩ => ⟨S1x1x256, .f32⟩
  | .hbm, ⟨50, _⟩ => ⟨S2x1024x256, .f32⟩
  | .hbm, ⟨51, _⟩ => ⟨S2x1024x256, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  shapeCasts_S2x1024x256_S2048x256 : S2x1024x256.ShapeCasts S2048x256
  bcast_S2048x256_S2048x1x256_0_2 : S2048x256.BroadcastsInDim S2048x1x256 (![0, 2] : Fin 2 → Fin S2048x1x256.rank)
  bcast_S256x256_S1x256x256_1_2 : S256x256.BroadcastsInDim S1x256x256 (![1, 2] : Fin 2 → Fin S1x256x256.rank)
  bcast_S2048x1x256_S2048x256x256_0_1_2 : S2048x1x256.BroadcastsInDim S2048x256x256 (![0, 1, 2] : Fin 3 → Fin S2048x256x256.rank)
  bcast_S1x256x256_S2048x256x256_0_1_2 : S1x256x256.BroadcastsInDim S2048x256x256 (![0, 1, 2] : Fin 3 → Fin S2048x256x256.rank)
  reducesTo_S2048x256x256_S2048x256_d2 : S2048x256x256.ReducesTo [2] S2048x256
  h_S_ : 0 < S_.numel
  reducesTo_S2048x256_S2048_d1 : S2048x256.ReducesTo [1] S2048
  reducesTo_S256x256_S256_d1 : S256x256.ReducesTo [1] S256
  bcast_S2048_S2048x1_0 : S2048.BroadcastsInDim S2048x1 (![0] : Fin 1 → Fin S2048x1.rank)
  bcast_S256_S1x256_1 : S256.BroadcastsInDim S1x256 (![1] : Fin 1 → Fin S1x256.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  transposes_S256x256_S256x256_1_0 : S256x256.Transposes [1, 0] S256x256
  bcast_S_S2048x256 : S_.BroadcastsInDim S2048x256 (![] : Fin 0 → Fin S2048x256.rank)
  shapeCasts_S2048x256_S2x1024x256 : S2048x256.ShapeCasts S2x1024x256
  bcast_S_S2x1024x256 : S_.BroadcastsInDim S2x1024x256 (![] : Fin 0 → Fin S2x1024x256.rank)
  shapeCasts_S1x256x1_S1x1x256 : S1x256x1.ShapeCasts S1x1x256
  bcast_S1x1x256_S2x1024x256_0_1_2 : S1x1x256.BroadcastsInDim S2x1024x256 (![0, 1, 2] : Fin 3 → Fin S2x1024x256.rank)
  dot_S2048x256_S256x256_S2048x256_1_0_0_1_n_n_wf : DotDims.WF S2048x256 S256x256 S2048x256 [1] [0] [0] [1] [] []

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

class Facts : Prop extends Facts₀ where

variable [Facts]
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.Dist.lean ====
/-
  The function both programs compute, entry by entry, and the one law that joins their two spellings of it.

  For a row `a` of `tanh x` and a row `b` of `tanh w` (each 256 long) and a gain `g`, the result entry is
      ((1 − ((L1·c − L2·c) + L2·c)) − ½) · g,        c = 2⁻⁸,
  where `L1 = ∑ₖ |aₖ − bₖ|` is the L1 distance of the two rows (`|u|` spelt `max u (−u)`) and
  `L2 = max ((∑ₖ aₖ² + ∑ₖ bₖ²) − 2·∑ₖ aₖ·bₖ, 0)` their squared L2 distance by the expansion of the square, clamped at
  zero. Every float constant stays the word both programs print; none is evaluated.

  One program takes the 256-term sum of `L1` whole; the other takes it in sixteen runs of sixteen consecutive terms, each
  run added onto an accumulator that starts at zero. Addition on the extended reals is commutative and associative at the
  infinities too, so the two are equal with no finiteness assumption (`sum_runs16`).
-/
import Idealize.ShloMosaic.PureOps.Ideal
import Idealize.ShloMosaic.PureOps.Ideal.Laws
import proofs.«118376_j78245714199351_2_alg».proof.Proof.LibSumRuns

noncomputable section

open scoped BigOperators

namespace Cert.Dist

open Idealize.ShloMosaic

/-- The L1 distance of two rows: the sum of the absolute differences, `|u|` spelt `max u (−u)`. -/
def l1 (a b : Fin 256 → EReal) : EReal := ∑ k : Fin 256, max (a k - b k) (-(a k - b k))

/-- The squared L2 distance of two rows by the expansion `‖a‖² + ‖b‖² − 2·⟨a, b⟩`, clamped at zero. -/
def l2 (a b : Fin 256 → EReal) : EReal :=
  max (((∑ k : Fin 256, a k * a k) + (∑ k : Fin 256, b k * b k))
      - Ideal.ofBits .f32 0x40000000#32 * ∑ k : Fin 256, a k * b k) (Ideal.ofBits .f32 0x00000000#32)

/-- One result entry from the two rows and the gain. -/
def entry (a b : Fin 256 → EReal) (g : EReal) : EReal :=
  ((Ideal.ofBits .f32 0x3F800000#32
      - ((l1 a b * Ideal.ofBits .f32 0x3B800000#32 - l2 a b * Ideal.ofBits .f32 0x3B800000#32)
          + l2 a b * Ideal.ofBits .f32 0x3B800000#32))
    - Ideal.ofBits .f32 0x3F000000#32) * g

/-- A sum of 256 consecutive terms is zero plus its sixteen runs of sixteen terms, added one run after the other. -/
theorem sum_runs16 (t : ℕ → EReal) :
    ((((((((((((((((0 + ∑ j : Fin 16, t (0 + j.val)) + ∑ j : Fin 16, t (16 + j.val)) + ∑ j : Fin 16, t (32 + j.val))
      + ∑ j : Fin 16, t (48 + j.val)) + ∑ j : Fin 16, t (64 + j.val)) + ∑ j : Fin 16, t (80 + j.val))
      + ∑ j : Fin 16, t (96 + j.val)) + ∑ j : Fin 16, t (112 + j.val)) + ∑ j : Fin 16, t (128 + j.val))
      + ∑ j : Fin 16, t (144 + j.val)) + ∑ j : Fin 16, t (160 + j.val)) + ∑ j : Fin 16, t (176 + j.val))
      + ∑ j : Fin 16, t (192 + j.val)) + ∑ j : Fin 16, t (208 + j.val)) + ∑ j : Fin 16, t (224 + j.val))
      + ∑ j : Fin 16, t (240 + j.val))
      = ∑ k : Fin 256, t k.val := by
  have h := Cert.LibSumRuns.sum_fin_runs t 16 16
  refine Eq.trans ?_ h
  simp only [Finset.sum_range_succ, Finset.sum_range_zero]

end Cert.Dist

end
-- ==== Proof.LibTrailingUnit.lean ====
/-
  Rank-3 forms with a trailing unit axis, and a sum over the middle axis, read at an index of literal coordinates.

  A pairwise computation between the rows of two matrices spreads one matrix's entries along a new LAST axis: an
  `a × b` array is given a trailing unit axis (`[a, b] → [a, b, 1]`) and broadcast along it (`[a, b, 1] → [a, b, c]`);
  the rank-3 result is then summed over its MIDDLE axis. Read at an index:

  * `shapeCast_ab_ab1_apply`: the cast of `x : [a, b]` to `[a, b, 1]` at `(p, k, u)` is `x (p, k)`, whatever the
    unit coordinate `u`;
  * `broadcastTo_ab1_abc_apply`: the broadcast of `v : [a, b, 1]` to `[a, b, c]` at `(p, k, q)` is `v (p, k, 0)`;
  * `lift_mid`: over the kept index `(p, q)`, the source index with middle coordinate `k` put back is `(p, k, q)`;
  * `multiReduction_add_mid`: at the extended reals the sum of `x : [a, b, c]` over its middle axis, at `(p, q)`, is
    `∑ k, x (p, k, q)`.
  Each is the library's general lemma with the per-axis arithmetic discharged, generic in the extents.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.TrailingUnit

open Idealize.ShloMosaic Idealize.ShloMosaic.ValueIdx

variable {α : Type}

/-- An `[a, b]` array cast to `[a, b, 1]` reads, at `(p, k, u)`, the operand at `(p, k)`. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- An `[a, b, 1]` array broadcast to `[a, b, c]` reads, at `(p, k, q)`, the operand at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ v h (ix3 p k q) = v (ix3 p k (0 : Fin 1)) := by
  refine broadcastTo_apply v h (ix3 p k q) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Over the kept index `(p, q)`, the source index whose middle coordinate is `k` is `(p, k, q)`. -/
theorem lift_mid {a b c : ℕ} (h : (⟨3, ![a, b, c]⟩ : Shape).Reduces [(1 : Fin 3)] ⟨2, ![a, c]⟩)
    (p : Fin a) (q : Fin c) (k : Fin b) : h.lift (ix2 p q) k = ix3 p k q := by
  funext d
  refine Fin.ext ?_
  match d with
  | ⟨0, _⟩ => rfl
  | ⟨1, _⟩ => rfl
  | ⟨2, _⟩ => rfl

/-- A float sum over the middle axis of an `a × b × c` array, at the extended reals and at `(p, q)`, is
    `∑ k, x (p, k, q)`. The accumulator fact is taken in the form a printed program carries it. -/
theorem multiReduction_add_mid {a b c : ℕ} {φ : FTy} (x : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (p : Fin a) (q : Fin c) :
    multiReduction .add [(1 : Fin 3)] ⟨2, ![a, c]⟩ x acc h hφ hacc (ix2 p q) = ∑ k : Fin b, x (ix3 p k q) := by
  refine (Ideal.multiReduction_add_single x acc h hφ hacc (ix2 p q)).trans ?_
  exact Finset.sum_congr rfl fun k _ => congrArg x (lift_mid h p q k)

end Cert.Proof.TrailingUnit

end
-- ==== Proof.LibRank3Layout.lean ====
/-
  Rank-3 layout operations read at an index given by its coordinates: a broadcast along a leading or a middle unit
  axis, and the cast of a vector to a rank-3 shape with two leading unit axes. Each is the library's general lemma
  (`broadcastTo_apply`, `shapeCast_apply`) with the operand's index written out and the per-axis arithmetic discharged,
  so that it applies to a printed operation at `ix3 …` by unification. Generic in the extents.
-/
import Idealize.ShloMosaic.Lib.Pipeline.Value
import Idealize.ShloMosaic.Lib.ValueIdx

namespace Idealize.ShloMosaic.ValueIdx

open Idealize.ShloMosaic

variable {α : Type}

/-- ONE MATRIX BROADCAST over a leading axis, [1,b,c] → [a,b,c]: at `(p, q, r)` it reads the matrix at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- ONE ROW PER LEADING INDEX BROADCAST over a middle axis, [a,1,c] → [a,b,c]: at `(p, q, r)` it reads `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A VECTOR CAST to two leading unit axes, [a] → [1,1,a]: at `(u, w, i)` it reads the vector at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]
    simp)

end Idealize.ShloMosaic.ValueIdx
-- ==== Proof.Chunk.lean ====
/-
  One run of the L1 distance, as the vector unit computes it.

  From two 256 × 256 matrices `A` and `B` take the sixteen columns from `o` on. `A`'s slice is given a trailing unit axis
  and spread along it, `B`'s is transposed, given a leading unit axis and spread along that: entry `(p, j, q)` of the
  difference of the two 256 × 16 × 256 arrays is `A (p, o + j) − B (q, o + j)`. Its absolute value summed over the middle
  axis is, at `(p, q)`, the run `∑ j < 16, |A (p, o + j) − B (q, o + j)|` of the L1 distance between row `p` of `A` and
  row `q` of `B`. The terms are named through a function `t` of the column number, so that the sixteen runs of a row pair
  speak of one sequence.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«118376_j78245714199351_2_alg».proof.Proof.LibTrailingUnit
import proofs.«118376_j78245714199351_2_alg».proof.Proof.LibRank3Layout

noncomputable section

open scoped BigOperators

namespace Cert.Dist

open Idealize.ShloMosaic Idealize.ShloMosaic.ValueIdx Cert.Proof.TrailingUnit

/-- The run of the L1 distance over the columns `o … o + 15`, read at `(p, q)`. -/
theorem chunk_apply (o : ℕ) (ho : o + 16 ≤ 256) (A B : FVec Ideal ⟨2, ![256, 256]⟩ .f32)
    (hs : (⟨2, ![256, 256]⟩ : Shape).Slices ![0, o] ⟨2, ![256, 16]⟩)
    (hc1 : (⟨2, ![256, 16]⟩ : Shape).ShapeCasts ⟨3, ![256, 16, 1]⟩)
    (ht : (⟨2, ![256, 16]⟩ : Shape).Transposes [1, 0] ⟨2, ![16, 256]⟩)
    (hc2 : (⟨2, ![16, 256]⟩ : Shape).ShapeCasts ⟨3, ![1, 16, 256]⟩)
    (hb1 : (⟨3, ![256, 16, 1]⟩ : Shape).Broadcasts ⟨3, ![256, 16, 256]⟩)
    (hb2 : (⟨3, ![1, 16, 256]⟩ : Shape).Broadcasts ⟨3, ![256, 16, 256]⟩)
    (hr : (⟨3, ![256, 16, 256]⟩ : Shape).Reduces [(1 : Fin 3)] ⟨2, ![256, 256]⟩)
    (hφ : FKind.Formats .f32) (hacc : (0x00000000#32 : BitVec 32) = FKind.add.neutral .f32 hφ)
    (p q : Fin 256) (t : ℕ → EReal)
    (htm : ∀ k : Fin 256, max (A (ix2 p k) - B (ix2 q k)) (-(A (ix2 p k) - B (ix2 q k))) = t k.val) :
    multiReduction .add [(1 : Fin 3)] ⟨2, ![256, 256]⟩
        (absf (subf
          (broadcastTo ⟨3, ![256, 16, 256]⟩
            (shapeCast ⟨3, ![256, 16, 1]⟩ (extractStridedSlice ⟨2, ![256, 16]⟩ ![0, o] A hs) hc1) hb1)
          (broadcastTo ⟨3, ![256, 16, 256]⟩
            (shapeCast ⟨3, ![1, 16, 256]⟩
              (transpose ⟨2, ![16, 256]⟩ [1, 0] (extractStridedSlice ⟨2, ![256, 16]⟩ ![0, o] B hs) ht) hc2) hb2)))
        0x00000000#32 hr hφ hacc (ix2 p q)
      = ∑ j : Fin 16, t (o + j.val) := by
  refine (multiReduction_add_mid _ _ hr hφ hacc p q).trans ?_
  refine Finset.sum_congr rfl fun j _ => ?_
  have hj : o + j.val < 256 := by have := j.isLt; omega
  refine Eq.trans ?_ (htm ⟨o + j.val, hj⟩)
  have eL : broadcastTo ⟨3, ![256, 16, 256]⟩
        (shapeCast ⟨3, ![256, 16, 1]⟩ (extractStridedSlice ⟨2, ![256, 16]⟩ ![0, o] A hs) hc1) hb1 (ix3 p j q)
      = A (ix2 p ⟨o + j.val, hj⟩) :=
    (broadcastTo_ab1_abc_apply _ hb1 p j q).trans
      ((shapeCast_ab_ab1_apply _ hc1 p j 0).trans (slice2_axis1_apply o A hs p j ⟨o + j.val, hj⟩ rfl))
  have eR : broadcastTo ⟨3, ![256, 16, 256]⟩
        (shapeCast ⟨3, ![1, 16, 256]⟩
          (transpose ⟨2, ![16, 256]⟩ [1, 0] (extractStridedSlice ⟨2, ![256, 16]⟩ ![0, o] B hs) ht) hc2) hb2 (ix3 p j q)
      = B (ix2 q ⟨o + j.val, hj⟩) :=
    (broadcastTo_1bc_abc_apply _ hb2 p j q).trans
      ((shapeCast_ab_1ab_apply _ hc2 0 j q).trans
        ((transpose_ix2_apply _ ht j q).trans (slice2_axis1_apply o B hs q j ⟨o + j.val, hj⟩ rfl)))
  exact congrArg₂ (fun u v : EReal => max (u - v) (-(u - v))) eL eR

end Cert.Dist

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Payload.lean ====
/-
  The kernel body's value at one entry of the output block.

  The body loads a 256-row block of `x`, the whole of `w` and the gain row, and stores one 256 × 256 block. Entry `(p, q)`
  of what it stores depends on row `p` of the `x` block, row `q` of `w` and entry `q` of the gain row only:
    * both matrices go through `tanh` entry by entry;
    * the squared-distance term takes the two rows' sums of squares (a lane sum, kept as a column and spread back over the
      lanes; for `w` the column is first turned into a row) and their inner product (the matrix product with `w`
      transposed; the rounding of its operands to bf16 is the identity on the extended reals);
    * the L1 term is accumulated from zero in sixteen runs of sixteen columns (Chunk.lean), which is the whole 256-term
      sum (`Dist.sum_runs16`);
    * the closing arithmetic is entry by entry.
  So the entry is `Dist.entry` of the two `tanh`-ed rows and the gain.
-/
import proofs.«118376_j78245714199351_2_alg».proof.Proof.Gen.KernelIdeal.Skeleton
import proofs.«118376_j78245714199351_2_alg».proof.Proof.Dist
import proofs.«118376_j78245714199351_2_alg».proof.Proof.Chunk
import proofs.«118376_j78245714199351_2_alg».proof.Proof.LibColumns
import proofs.«118376_j78245714199351_2_alg».proof.Proof.LibPlainDot
import Idealize.ShloMosaic.Lib.ValueLayout

noncomputable section

open scoped BigOperators

namespace Cert.KernelIdeal.Payload

open Cert.KernelIdeal Cert.KernelIdeal.Gen Idealize.ShloMosaic Idealize.ShloMosaic.ValueIdx
open Cert.Dist Cert.Proof.Columns Cert.Proof.PlainDot

/-- The `x` block after `tanh`, entry by entry. -/
theorem pay2_apply (v0 : Vec Ideal S256x256 .f32) (i : S256x256.Idx) :
    k0_pay2 (F := Ideal) v0 i = Ideal.tanh (v0 i) := by
  unfold k0_pay2
  exact congrArg (fun v : S256x256.Idx → EReal => Ideal.tanh (v i)) (shapeCast_self v0 _)

/-- `w` after `tanh`, entry by entry. -/
theorem pay3_apply (v3 : Vec Ideal S256x256 .f32) (i : S256x256.Idx) :
    k0_pay3 (F := Ideal) v3 i = Ideal.tanh (v3 i) := rfl

/-- The clamped squared distance of row `p` of `tanh x` and row `q` of `tanh w`. -/
theorem pay4_apply (v0 v3 : Vec Ideal S256x256 .f32) (p q : Fin 256) :
    k0_pay4 (F := Ideal) v0 v3 (ix2 p q)
      = l2 (fun k => Ideal.tanh (v0 (ix2 p k))) (fun k => Ideal.tanh (v3 (ix2 q k))) := by
  unfold k0_pay4 l2
  refine (maximumf_apply _ _ _).trans (congrArg₂ max ((subf_apply _ _ _).trans (congrArg₂ (· - ·)
    ((addf_apply _ _ _).trans (congrArg₂ (· + ·) ?xsq ?wsq))
    ((mulf_apply _ _ _).trans (congrArg₂ (· * ·) rfl ?xw)))) rfl)
  case xsq =>
    refine (broadcastTo_a1_ab_apply _ _ p q).trans ((shapeCast_a_a1_apply _ _ p 0).trans
      ((multiReduction_add_rows _ _ _ _ _ p).trans (Finset.sum_congr rfl fun k _ => ?_)))
    exact (mulf_apply _ _ _).trans (congrArg₂ (· * ·) (pay2_apply v0 _) (pay2_apply v0 _))
  case wsq =>
    refine (broadcastTo_1b_ab_apply _ _ p q).trans ((transpose_ix2_apply _ _ 0 q).trans
      ((shapeCast_a_a1_apply _ _ q 0).trans
        ((multiReduction_add_rows _ _ _ _ _ q).trans (Finset.sum_congr rfl fun k _ => ?_))))
    exact (mulf_apply _ _ _).trans (congrArg₂ (· * ·) (pay3_apply v3 _) (pay3_apply v3 _))
  case xw =>
    refine (matmul_plain_zero none _ _ (ix2 p q)).trans (Finset.sum_congr rfl fun k _ => ?_)
    refine congrArg₂ (· * ·) ?_ ?_
    · exact pay2_apply v0 (ix2 p k)
    · exact (transpose_ix2_apply _ _ k q).trans (pay3_apply v3 (ix2 q k))

/-- The L1 accumulator after the first two runs (columns 0 … 31), started from zero. -/
theorem pay5_apply (v0 v3 : Vec Ideal S256x256 .f32) (p q : Fin 256) (t : ℕ → EReal)
    (htm : ∀ k : Fin 256, max (Ideal.tanh (v0 (ix2 p k)) - Ideal.tanh (v3 (ix2 q k)))
        (-(Ideal.tanh (v0 (ix2 p k)) - Ideal.tanh (v3 (ix2 q k)))) = t k.val) :
    k0_pay5 (F := Ideal) v0 v3 (ix2 p q) = (0 + ∑ j : Fin 16, t (0 + j.val)) + ∑ j : Fin 16, t (16 + j.val) := by
  have htm' : ∀ k : Fin 256, max (k0_pay2 (F := Ideal) v0 (ix2 p k) - k0_pay3 (F := Ideal) v3 (ix2 q k))
      (-(k0_pay2 (F := Ideal) v0 (ix2 p k) - k0_pay3 (F := Ideal) v3 (ix2 q k))) = t k.val := fun k => by
    rw [pay2_apply, pay3_apply]; exact htm k
  unfold k0_pay5
  refine (addf_apply _ _ _).trans (congrArg₂ (· + ·) ((addf_apply _ _ _).trans (congrArg₂ (· + ·) Ideal.ofBits_zero_f32
    (chunk_apply 0 (by norm_num) (k0_pay2 v0) (k0_pay3 v3) _ _ _ _ _ _ _ _ _ p q t htm')))
    (chunk_apply 16 (by norm_num) (k0_pay2 v0) (k0_pay3 v3) _ _ _ _ _ _ _ _ _ p q t htm'))

/-- Five more runs (columns 32 … 111) added onto an accumulator. -/
theorem pay6_apply (A B acc : FVec Ideal S256x256 .f32) (p q : Fin 256) (t : ℕ → EReal)
    (htm : ∀ k : Fin 256, max (A (ix2 p k) - B (ix2 q k)) (-(A (ix2 p k) - B (ix2 q k))) = t k.val) :
    k0_pay6 (F := Ideal) A B acc (ix2 p q)
      = ((((acc (ix2 p q) + ∑ j : Fin 16, t (32 + j.val)) + ∑ j : Fin 16, t (48 + j.val)) + ∑ j : Fin 16, t (64 + j.val)) + ∑ j : Fin 16, t (80 + j.val)) + ∑ j : Fin 16, t (96 + j.val) := by
  unfold k0_pay6
  refine (addf_apply _ _ _).trans (congrArg₂ (· + ·) ((addf_apply _ _ _).trans (congrArg₂ (· + ·)
    ((addf_apply _ _ _).trans (congrArg₂ (· + ·) ((addf_apply _ _ _).trans (congrArg₂ (· + ·)
      ((addf_apply _ _ _).trans (congrArg₂ (· + ·) rfl (chunk_apply 32 (by norm_num) A B _ _ _ _ _ _ _ _ _ p q t htm))) (chunk_apply 48 (by norm_num) A B _ _ _ _ _ _ _ _ _ p q t htm))) (chunk_apply 64 (by norm_num) A B _ _ _ _ _ _ _ _ _ p q t htm))) (chunk_apply 80 (by norm_num) A B _ _ _ _ _ _ _ _ _ p q t htm))) (chunk_apply 96 (by norm_num) A B _ _ _ _ _ _ _ _ _ p q t htm))

/-- Five more runs (columns 112 … 191) added onto an accumulator. -/
theorem pay7_apply (A B acc : FVec Ideal S256x256 .f32) (p q : Fin 256) (t : ℕ → EReal)
    (htm : ∀ k : Fin 256, max (A (ix2 p k) - B (ix2 q k)) (-(A (ix2 p k) - B (ix2 q k))) = t k.val) :
    k0_pay7 (F := Ideal) A B acc (ix2 p q)
      = ((((acc (ix2 p q) + ∑ j : Fin 16, t (112 + j.val)) + ∑ j : Fin 16, t (128 + j.val)) + ∑ j : Fin 16, t (144 + j.val)) + ∑ j : Fin 16, t (160 + j.val)) + ∑ j : Fin 16, t (176 + j.val) := by
  unfold k0_pay7
  refine (addf_apply _ _ _).trans (congrArg₂ (· + ·) ((addf_apply _ _ _).trans (congrArg₂ (· + ·)
    ((addf_apply _ _ _).trans (congrArg₂ (· + ·) ((addf_apply _ _ _).trans (congrArg₂ (· + ·)
      ((addf_apply _ _ _).trans (congrArg₂ (· + ·) rfl (chunk_apply 112 (by norm_num) A B _ _ _ _ _ _ _ _ _ p q t htm))) (chunk_apply 128 (by norm_num) A B _ _ _ _ _ _ _ _ _ p q t htm))) (chunk_apply 144 (by norm_num) A B _ _ _ _ _ _ _ _ _ p q t htm))) (chunk_apply 160 (by norm_num) A B _ _ _ _ _ _ _ _ _ p q t htm))) (chunk_apply 176 (by norm_num) A B _ _ _ _ _ _ _ _ _ p q t htm))

/-- The last four runs (columns 192 … 255) added onto an accumulator, and the arithmetic that follows: with `s` the
    finished L1 sum and `d` the squared-distance term, `1 − ((s·c − d·c) + d·c)`. -/
theorem pay8_apply (A B d acc : FVec Ideal S256x256 .f32) (p q : Fin 256) (t : ℕ → EReal)
    (htm : ∀ k : Fin 256, max (A (ix2 p k) - B (ix2 q k)) (-(A (ix2 p k) - B (ix2 q k))) = t k.val) :
    k0_pay8 (F := Ideal) A B d acc (ix2 p q)
      = Ideal.ofBits .f32 0x3F800000#32
        - ((((((acc (ix2 p q) + ∑ j : Fin 16, t (192 + j.val)) + ∑ j : Fin 16, t (208 + j.val)) + ∑ j : Fin 16, t (224 + j.val)) + ∑ j : Fin 16, t (240 + j.val))
              * Ideal.ofBits .f32 0x3B800000#32 - d (ix2 p q) * Ideal.ofBits .f32 0x3B800000#32)
            + d (ix2 p q) * Ideal.ofBits .f32 0x3B800000#32) := by
  unfold k0_pay8
  refine (subf_apply _ _ _).trans (congrArg₂ (· - ·) rfl ((addf_apply _ _ _).trans (congrArg₂ (· + ·)
    ((subf_apply _ _ _).trans (congrArg₂ (· - ·) ((mulf_apply _ _ _).trans (congrArg₂ (· * ·) ?acc rfl)) rfl)) rfl)))
  exact (addf_apply _ _ _).trans (congrArg₂ (· + ·) ((addf_apply _ _ _).trans (congrArg₂ (· + ·)
    ((addf_apply _ _ _).trans (congrArg₂ (· + ·) ((addf_apply _ _ _).trans (congrArg₂ (· + ·) rfl (chunk_apply 192 (by norm_num) A B _ _ _ _ _ _ _ _ _ p q t htm)))
      (chunk_apply 208 (by norm_num) A B _ _ _ _ _ _ _ _ _ p q t htm))) (chunk_apply 224 (by norm_num) A B _ _ _ _ _ _ _ _ _ p q t htm))) (chunk_apply 240 (by norm_num) A B _ _ _ _ _ _ _ _ _ p q t htm))

/-- The stored value: the half taken off and the gain row, spread over the rows, multiplied in. -/
theorem pay1_apply (v208 : FVec Ideal S256x256 .f32) (h : Ideal .f32) (v211 : Vec Ideal S1x256 .f32) (p q : Fin 256) :
    k0_pay1 (F := Ideal) v208 h v211 (ix2 p q) = (v208 (ix2 p q) - h) * v211 (ix2 (0 : Fin 1) q) := by
  unfold k0_pay1
  refine (mulf_apply _ _ _).trans (congrArg₂ (· * ·) rfl ?_)
  exact (broadcastTo_1b_ab_apply _ _ p q).trans (congrFun (shapeCast_self v211 _) _)

/-- THE BLOCK ENTRY: what the body stores at `(p, q)`, from the `x` block `x0`, `w` (`x1`) and the gain row `x2`. -/
theorem stored_apply (x0 x1 : Vec Ideal S256x256 .f32) (x2 : Vec Ideal S1x256 .f32) (p q : Fin 256) :
    k0_pay1 (F := Ideal)
        (k0_pay8 (k0_pay2 x0) (k0_pay3 x1) (k0_pay4 x0 x1)
          (k0_pay7 (k0_pay2 x0) (k0_pay3 x1) (k0_pay6 (k0_pay2 x0) (k0_pay3 x1) (k0_pay5 x0 x1))))
        (Scalar.ofBits .f32 0x3F000000#32) x2 (ix2 p q)
      = entry (fun k => Ideal.tanh (x0 (ix2 p k))) (fun k => Ideal.tanh (x1 (ix2 q k))) (x2 (ix2 (0 : Fin 1) q)) := by
  let t : ℕ → EReal := fun n => if h : n < 256 then
    max (Ideal.tanh (x0 (ix2 p ⟨n, h⟩)) - Ideal.tanh (x1 (ix2 q ⟨n, h⟩)))
      (-(Ideal.tanh (x0 (ix2 p ⟨n, h⟩)) - Ideal.tanh (x1 (ix2 q ⟨n, h⟩)))) else 0
  have htm : ∀ k : Fin 256, max (Ideal.tanh (x0 (ix2 p k)) - Ideal.tanh (x1 (ix2 q k)))
      (-(Ideal.tanh (x0 (ix2 p k)) - Ideal.tanh (x1 (ix2 q k)))) = t k.val := fun k => by
    show _ = dite _ _ _
    rw [dif_pos k.isLt]
  have htm' : ∀ k : Fin 256, max (k0_pay2 (F := Ideal) x0 (ix2 p k) - k0_pay3 (F := Ideal) x1 (ix2 q k))
      (-(k0_pay2 (F := Ideal) x0 (ix2 p k) - k0_pay3 (F := Ideal) x1 (ix2 q k))) = t k.val := fun k => by
    rw [pay2_apply, pay3_apply]; exact htm k
  rw [pay1_apply, pay8_apply _ _ _ _ p q t htm', pay7_apply _ _ _ p q t htm', pay6_apply _ _ _ p q t htm',
    pay5_apply x0 x1 p q t htm, pay4_apply, sum_runs16 t]
  unfold entry l1
  refine congrArg₂ (· * ·) (congrArg₂ (· - ·) (congrArg₂ (· - ·) rfl (congrArg₂ (· + ·) (congrArg₂ (· - ·)
    (congrArg₂ (· * ·) (Finset.sum_congr rfl fun k _ => (htm k).symm) rfl) rfl) rfl)) rfl) rfl

end Cert.KernelIdeal.Payload

end
-- ==== Proof.Result.lean ====
/-
  The result array as one function of the three argument arrays.

  The result has the shape of `x`, 2 × 1024 × 256. Its entry `(b, t, o)` is `Dist.entry` of row `(b, t)` of `tanh x`, row `o`
  of `tanh w` and the gain's entry `o`. Both programs work on `x` flattened to 2048 rows; row `(b, t)` is row
  `1024·b + t` there (`row`). `G2` is the same function on the flattened arrays (2048 × 256 for `x` and the result, a
  1 × 256 row for the gain), and the result array is `G2` of the flattened arguments, cast back to 2 × 1024 × 256
  (`G2_reshape`): a cast keeps the row-major position, and `(1024·b + t)·256 + k` is the position of `(b, t, k)`.
-/
import proofs.«118376_j78245714199351_2_alg».proof.Proof.Dist
import Idealize.ShloMosaic.Lib.ValueIdx
import Idealize.ShloMosaic.Lib.Pipeline.Value

noncomputable section

namespace Cert.Dist

open Idealize.ShloMosaic Idealize.ShloMosaic.ValueIdx

/-- Row `(b, t)` of the 2 × 1024 batch is row `1024·b + t` of the flattened 2048. -/
def row (b : Fin 2) (t : Fin 1024) : Fin 2048 := ⟨b.val * 1024 + t.val, by have := b.isLt; have := t.isLt; omega⟩

theorem row_val (b : Fin 2) (t : Fin 1024) : (row b t).val = b.val * 1024 + t.val := rfl

/-- The result at `(b, t, o)`, from the argument arrays. -/
def Gat (x : (⟨3, ![2, 1024, 256]⟩ : Shape).Idx → EReal) (w : (⟨2, ![256, 256]⟩ : Shape).Idx → EReal)
    (g : (⟨3, ![1, 256, 1]⟩ : Shape).Idx → EReal) (b : Fin 2) (t : Fin 1024) (o : Fin 256) : EReal :=
  entry (fun k => Ideal.tanh (x (ix3 b t k))) (fun k => Ideal.tanh (w (ix2 o k))) (g (ix3 (0 : Fin 1) o (0 : Fin 1)))

/-- The result array. -/
def G (x : (⟨3, ![2, 1024, 256]⟩ : Shape).Idx → EReal) (w : (⟨2, ![256, 256]⟩ : Shape).Idx → EReal)
    (g : (⟨3, ![1, 256, 1]⟩ : Shape).Idx → EReal) : (⟨3, ![2, 1024, 256]⟩ : Shape).Idx → EReal :=
  fun i => Gat x w g (i 0) (i 1) (i 2)

theorem G_apply (x : (⟨3, ![2, 1024, 256]⟩ : Shape).Idx → EReal) (w : (⟨2, ![256, 256]⟩ : Shape).Idx → EReal)
    (g : (⟨3, ![1, 256, 1]⟩ : Shape).Idx → EReal) (b : Fin 2) (t : Fin 1024) (o : Fin 256) :
    G x w g (ix3 b t o) = Gat x w g b t o := rfl

/-- `entry` takes equal rows and gains to equal entries. -/
theorem entry_congr {a a' b b' : Fin 256 → EReal} {g g' : EReal} (ha : ∀ k, a k = a' k) (hb : ∀ k, b k = b' k)
    (hg : g = g') : entry a b g = entry a' b' g' := by
  rw [funext ha, funext hb, hg]

/-- The same function on the flattened arrays: entry `(n, o)` from row `n` of the flattened `x`, row `o` of `w` and entry
    `o` of the gain row. -/
def G2 (X : (⟨2, ![2048, 256]⟩ : Shape).Idx → EReal) (w : (⟨2, ![256, 256]⟩ : Shape).Idx → EReal)
    (g2 : (⟨2, ![1, 256]⟩ : Shape).Idx → EReal) : (⟨2, ![2048, 256]⟩ : Shape).Idx → EReal :=
  fun i => entry (fun k => Ideal.tanh (X (ix2 (i 0) k))) (fun k => Ideal.tanh (w (ix2 (i 1) k))) (g2 (ix2 (0 : Fin 1) (i 1)))

/-- `G2` of the flattened arguments, cast back to 2 × 1024 × 256, is `G` of the arguments. -/
theorem G2_reshape (x : (⟨3, ![2, 1024, 256]⟩ : Shape).Idx → EReal) (w : (⟨2, ![256, 256]⟩ : Shape).Idx → EReal)
    (g : (⟨3, ![1, 256, 1]⟩ : Shape).Idx → EReal)
    (h1 : (⟨3, ![2, 1024, 256]⟩ : Shape).ShapeCasts ⟨2, ![2048, 256]⟩)
    (h2 : (⟨3, ![1, 256, 1]⟩ : Shape).ShapeCasts ⟨2, ![1, 256]⟩)
    (h3 : (⟨2, ![2048, 256]⟩ : Shape).ShapeCasts ⟨3, ![2, 1024, 256]⟩) :
    shapeCast ⟨3, ![2, 1024, 256]⟩ (G2 (shapeCast ⟨2, ![2048, 256]⟩ x h1) w (shapeCast ⟨2, ![1, 256]⟩ g h2)) h3
      = G x w g := by
  funext i
  obtain ⟨b, t, o, rfl⟩ : ∃ (b : Fin 2) (t : Fin 1024) (o : Fin 256), i = ix3 b t o := ⟨i 0, i 1, i 2, eq_ix3 i⟩
  have hx : ∀ k : Fin 256, shapeCast ⟨2, ![2048, 256]⟩ x h1 (ix2 (row b t) k) = x (ix3 b t k) := fun k =>
    shapeCast_apply x h1 _ _ (by
      rw [Shape.rowMajor_val_three, Shape.rowMajor_val_two]
      show (b.val * 1024 + t.val) * 256 + k.val = (row b t).val * 256 + k.val
      rfl)
  have hg : shapeCast ⟨2, ![1, 256]⟩ g h2 (ix2 (0 : Fin 1) o) = g (ix3 (0 : Fin 1) o (0 : Fin 1)) :=
    shapeCast_apply g h2 _ _ (by
      rw [Shape.rowMajor_val_three, Shape.rowMajor_val_two]
      show (0 * 256 + o.val) * 1 + 0 = 0 * 256 + o.val
      omega)
  refine (shapeCast_apply _ h3 (ix3 b t o) (ix2 (row b t) o) ?_).trans ?_
  · rw [Shape.rowMajor_val_two, Shape.rowMajor_val_three]
    show (row b t).val * 256 + o.val = (b.val * 1024 + t.val) * 256 + o.val
    rfl
  · show entry (fun k => Ideal.tanh (shapeCast ⟨2, ![2048, 256]⟩ x h1 (ix2 (row b t) k)))
        (fun k => Ideal.tanh (w (ix2 o k))) (shapeCast ⟨2, ![1, 256]⟩ g h2 (ix2 (0 : Fin 1) o))
      = entry (fun k => Ideal.tanh (x (ix3 b t k))) (fun k => Ideal.tanh (w (ix2 o k))) (g (ix3 (0 : Fin 1) o (0 : Fin 1)))
    rw [hg]
    exact congrArg (fun a => entry a (fun k => Ideal.tanh (w (ix2 o k))) (g (ix3 (0 : Fin 1) o (0 : Fin 1))))
      (funext fun k => congrArg Ideal.tanh (hx k))

end Cert.Dist

end
-- ==== Proof.KernelValue.lean ====
/-
  The kernel's run, read as a value: the result array after the run is `Dist.G` of the argument arrays.

  The pallas_call works on `x` flattened to 2048 × 256 and on the gain as a 1 × 256 row (two reshapes before the call), in
  eight grid points. Point `t` reads rows `256·t … 256·t + 255` of the flattened `x`, the whole of `w` and the whole gain
  row, and writes back rows `256·t … 256·t + 255` of the 2048 × 256 result. By Payload.lean the block it writes is the block
  of `Dist.G2` of the three arrays — an entry of the block depends on its own row of `x` only —, the eight blocks cover the
  array (row `n` lies in block `n / 256`), so the array ends holding `G2`; the reshape after the call turns it into `G`
  (`Dist.G2_reshape`).
-/
import proofs.«118376_j78245714199351_2_alg».proof.Proof.Gen.KernelIdeal.Frame
import proofs.«118376_j78245714199351_2_alg».proof.Proof.Payload
import proofs.«118376_j78245714199351_2_alg».proof.Proof.Result
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Payload Cert.Dist Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The body's stored block at an index `j`, over any three loaded blocks. -/
theorem stored_at (x0 x1 : Vec Ideal S256x256 .f32) (x2 : Vec Ideal S1x256 .f32) (j : S256x256.Idx) :
    k0_pay1 (F := Ideal)
        (k0_pay8 (k0_pay2 x0) (k0_pay3 x1) (k0_pay4 x0 x1)
          (k0_pay7 (k0_pay2 x0) (k0_pay3 x1) (k0_pay6 (k0_pay2 x0) (k0_pay3 x1) (k0_pay5 x0 x1))))
        (Scalar.ofBits .f32 0x3F000000#32) x2 j
      = entry (fun k => Ideal.tanh (x0 (ix2 (j 0) k))) (fun k => Ideal.tanh (x1 (ix2 (j 1) k))) (x2 (ix2 (0 : Fin 1) (j 1))) := by
  obtain ⟨p, q, rfl⟩ : ∃ (p q : Fin 256), j = ix2 p q := ⟨j 0, j 1, eq_ix2 j⟩
  exact stored_apply x0 x1 x2 p q

/-- The printed index maps over the grid: the `x` window and the result window move down one block of rows per point, `w`
    and the gain row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The `x` window's block at point `t` is rows `256·t …` of the flattened `x`. -/
theorem blk0_apply (c : Dev nD) (t : Fin cfg0.N) (y : S256x256.Idx) (i : S2048x256.Idx)
    (h0 : (i 0).val = t.val * 256 + (y 0).val) (h1 : (i 1).val = (y 1).val) :
    (iblk m c 0 t : Vec Ideal S256x256 .f32) y = (V m c main_v0 : S2048x256.Idx → EReal) i := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 256 + 1 * (y 0).val = (i 0).val; rw [e0, h0]; omega
  | ⟨1, _⟩ => show win0_0.index t (1 : Fin 2) * 256 + 1 * (y 1).val = (i 1).val; rw [e1, h1]; omega

/-- The `w` window's block at any point is `w`. -/
theorem blk1_apply (c : Dev nD) (t : Fin cfg0.N) (y : S256x256.Idx) :
    (iblk m c 1 t : Vec Ideal S256x256 .f32) y = (V m c main_arg1 : S256x256.Idx → EReal) y := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The gain window's block at any point is the gain row. -/
theorem blk2_apply (c : Dev nD) (t : Fin cfg0.N) (y : S1x256.Idx) :
    (iblk m c 2 t : Vec Ideal S1x256 .f32) y = (V m c main_v1 : S1x256.Idx → EReal) y := by
  obtain ⟨-, -, -, -, e0, e1, -⟩ := idx_facts t
  unfold iblk
  rw [View.read_apply]
  show V m c main_v1 _ = V m c main_v1 _
  refine congrArg (V m c main_v1) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- WHAT POINT `t` WRITES BACK is block `t` of `G2` of the three arrays as the call finds them. -/
theorem flushed_eq (c : Dev nD) (t : Fin cfg0.N) :
    (dats m 0 c).flushed 3 t
      = ((cfg0.win 3).blk t).view.read (Elt Ideal) (G2 (V m c main_v0) (V m c main_arg1) (V m c main_v1)) := by
  obtain ⟨-, -, -, -, -, -, e0, e1⟩ := idx_facts t
  show (cfg0.win 3).cut (grid0.coords t) ((dats m 0 c).after 3 t) = _
  rw [after0_3]
  unfold out0_3
  rw [View.canon_unit_zero hz]
  simp only [View.ld_unit_zero (S := S256x256) hz, View.ld_unit_zero (S := S1x256) hz]
  funext j
  refine (stored_at (iblk m c 0 t) (iblk m c 1 t) (iblk m c 2 t) j).trans ?_
  rw [View.read_apply]
  show _ = entry (fun k => Ideal.tanh (V m c main_v0 (ix2 ((((cfg0.win 3).blk t).view.emb j) 0) k)))
    (fun k => Ideal.tanh (V m c main_arg1 (ix2 ((((cfg0.win 3).blk t).view.emb j) 1) k)))
    (V m c main_v1 (ix2 (0 : Fin 1) ((((cfg0.win 3).blk t).view.emb j) 1)))
  have hr0 : ((((cfg0.win 3).blk t).view.emb j) 0).val = t.val * 256 + (j 0).val := by
    show win0_3.index t (0 : Fin 2) * 256 + 1 * (j 0).val = _; rw [e0]; omega
  have hr1 : ((((cfg0.win 3).blk t).view.emb j) 1).val = (j 1).val := by
    show win0_3.index t (1 : Fin 2) * 256 + 1 * (j 1).val = _; rw [e1]; omega
  have hq : (((cfg0.win 3).blk t).view.emb j) 1 = j 1 := Fin.ext hr1
  refine entry_congr (fun k => ?_) (fun k => ?_) ?_
  · exact congrArg Ideal.tanh
      (blk0_apply m c t (ix2 (j 0) k) (ix2 ((((cfg0.win 3).blk t).view.emb j) 0) k) hr0 rfl)
  · exact congrArg Ideal.tanh ((blk1_apply m c t (ix2 (j 1) k)).trans
      (congrArg (fun a => (V m c main_arg1 : S256x256.Idx → EReal) (ix2 a k)) hq.symm))
  · exact (blk2_apply m c t (ix2 (0 : Fin 1) (j 1))).trans
      (congrArg (fun a => (V m c main_v1 : S1x256.Idx → EReal) (ix2 (0 : Fin 1) a)) hq.symm)

/-- An index of the result array is in point `t`'s block iff each coordinate is in the block's range on its axis. -/
theorem mem_blk (t : Fin cfg0.N) (i : S2048x256.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v2).slice (win0_3.rect t)).set ↔ _
  rw [View.set_slice_whole, Rect.mem_set_unit]
  exact Iff.rfl

/-- The eight blocks cover the array: row `n` lies in the block of point `n / 256`. -/
theorem cover (i : S2048x256.Idx) :
    ∃ t : Fin cfg0.N, (cfg0.win 3).flush t = true ∧ i ∈ ((cfg0.win 3).blk t).view.set := by
  have hN : cfg0.N = 8 := N_0
  have hi0 : (i 0).val < 2048 := (i 0).isLt
  have hi1 : (i 1).val < 256 := (i 1).isLt
  have hlt : (i 0).val / 256 < cfg0.N := by rw [hN]; omega
  obtain ⟨-, -, -, -, -, -, e0, e1⟩ := idx_facts ⟨(i 0).val / 256, hlt⟩
  refine ⟨⟨(i 0).val / 256, hlt⟩, flush0_3 _, ?_⟩
  rw [mem_blk]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, hlt⟩ (1 : Fin 2) * 256 ≤ (i 1).val
      ∧ (i 1).val < win0_3.index ⟨(i 0).val / 256, hlt⟩ (1 : Fin 2) * 256 + 256
    rw [e1]
    omega

/-- THE 2048 × 256 ARRAY after the call is `G2` of the three arrays as the call finds them. -/
theorem final2d (c : Dev nD) :
    (dats m 0 c).arrAt 3 cfg0.N = G2 (V m c main_v0) (V m c main_arg1) (V m c main_v1) :=
  (dats m 0 c).arrAt_eq_of_cover 3 (G2 (V m c main_v0) (V m c main_arg1) (V m c main_v1))
    (fun t _ => flushed_eq m c t) cover

/-- The call finds `x` flattened to 2048 rows … -/
theorem V_main_v0 (c : Dev nD) : (V m c main_v0 : S2048x256.Idx → EReal)
    = shapeCast S2048x256 (m ((c : Thread nD τ).loc main_arg0)) shapeCasts_S2x1024x256_S2048x256 := by
  show StableHlo.after hostOps0 (fun b => m (c, b)) (Proc.devRef .tc main_v0) = _
  after_results
  rfl

/-- … and the gain as a row. -/
theorem V_main_v1 (c : Dev nD) : (V m c main_v1 : S1x256.Idx → EReal)
    = shapeCast S1x256 (m ((c : Thread nD τ).loc main_arg2)) shapeCasts_S1x256x1_S1x256 := by
  show StableHlo.after hostOps0 (fun b => m (c, b)) (Proc.devRef .tc main_v1) = _
  after_results
  rfl

/-- The reshape after the call reads the 2048 × 256 array the call left. -/
theorem tail_eq (c : Dev nD) :
    Pipeline.afterTail₀ cfgs (dats m) 0 (V0 m) [hostOps1] c main_v3
      = shapeCast S2x1024x256 ((dats m 0 c).arrAt 3 cfg0.N) shapeCasts_S2048x256_S2x1024x256 := by
  unfold Pipeline.afterTail₀
  show StableHlo.after hostOps1 _ (Proc.devRef .tc main_v3) = _
  after_results
  exact congrArg (fun X => shapeCast S2x1024x256 X shapeCasts_S2048x256_S2x1024x256)
    (Pipeline.withArrays_arr spec0 launch0.win.arr_inj c _ _ 3)

/-- THE RESULT: `G` of the argument arrays. -/
theorem result_eq (c : Dev nD) :
    Pipeline.afterTail₀ cfgs (dats m) 0 (V0 m) [hostOps1] c main_v3
      = G (m ((c : Thread nD τ).loc main_arg0)) (m ((c : Thread nD τ).loc main_arg1)) (m ((c : Thread nD τ).loc main_arg2)) := by
  rw [tail_eq, final2d, V_main_v0, V_main_v1, V_main_arg1]
  exact G2_reshape _ _ _ _ _ _

/-- The run, read: the result array at `G` of the arguments, the arguments unchanged. -/
theorem run : θ_run defs (onTc (τ := τ) (main (F := Ideal))) ⟨m, fun _ => 0, ρ⟩ fun r => ∀ c : Dev nD,
      r.2.mem ((c.tc : Thread nD τ).loc main_v3)
        = G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference's result, read at an index: it is `Dist.G` of the argument arrays.

  The reference flattens `tanh x` to 2048 rows, forms for every pair (row `n` of `tanh x`, row `o` of `tanh w`) the 256
  absolute differences and sums them (one whole sum, from a zero start), forms the two rows' sums of squares and their
  inner product, and closes with the same entrywise arithmetic; then it casts the 2048 × 256 result back to
  2 × 1024 × 256, takes the half off and multiplies the gain in. Each operation's result at an index is the generated read
  lemma's; what is written here is which index each layout operation reads (`e…`) and the chain.
-/
import proofs.«118376_j78245714199351_2_alg».proof.Proof.Gen.ReferenceIdeal.Read
import proofs.«118376_j78245714199351_2_alg».proof.Proof.Result
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.Dist
open Idealize.ShloMosaic Idealize.ShloMosaic.ValueIdx

variable (x0 : S2x1024x256.Idx → EReal) (x1 : S256x256.Idx → EReal) (x2 : S1x256x1.Idx → EReal)

/-! ## Which index each layout operation reads -/

theorem e_x3 (n : Fin 2048) (o k : Fin 256) :
    idx_main_v3 (idx_main_v5 (idx_main_v9 (ix2 n o) k)) = ix2 n k :=
  funext fun a => Fin.ext (by match a with | ⟨0, _⟩ => rfl | ⟨1, _⟩ => rfl)

theorem e_w3 (n : Fin 2048) (o k : Fin 256) :
    idx_main_v4 (idx_main_v6 (idx_main_v9 (ix2 n o) k)) = ix2 o k :=
  funext fun a => Fin.ext (by match a with | ⟨0, _⟩ => rfl | ⟨1, _⟩ => rfl)

theorem e_xsq (n : Fin 2048) (o k : Fin 256) :
    idx_main_v11 (idx_main_v14 (idx_main_v16 (ix2 n o))) k = ix2 n k :=
  funext fun a => Fin.ext (by match a with | ⟨0, _⟩ => rfl | ⟨1, _⟩ => rfl)

theorem e_wsq (n : Fin 2048) (o k : Fin 256) :
    idx_main_v13 (idx_main_v15 (idx_main_v17 (ix2 n o))) k = ix2 o k :=
  funext fun a => Fin.ext (by match a with | ⟨0, _⟩ => rfl | ⟨1, _⟩ => rfl)

theorem e_lhs (n : Fin 2048) (o k : Fin 256) : lidx_main_v20 (ix2 n o) k = ix2 n k :=
  funext fun a => Fin.ext (by match a with | ⟨0, _⟩ => rfl | ⟨1, _⟩ => rfl)

theorem e_rhs (n : Fin 2048) (o k : Fin 256) : idx_main_v19 (ridx_main_v20 (ix2 n o) k) = ix2 o k :=
  funext fun a => Fin.ext (by match a with | ⟨0, _⟩ => rfl | ⟨1, _⟩ => rfl)

theorem e_out (b : Fin 2) (t : Fin 1024) (o : Fin 256) : idx_main_v34 (ix3 b t o) = ix2 (row b t) o := by
  have hb := b.isLt; have ht := t.isLt; have ho := o.isLt
  funext a
  refine Fin.ext ?_
  match a with
  | ⟨0, _⟩ => show ((b.val * 1024 + t.val) * 256 + o.val) / 256 = b.val * 1024 + t.val; omega
  | ⟨1, _⟩ => show ((b.val * 1024 + t.val) * 256 + o.val) % 256 = o.val; omega

theorem e_gain (b : Fin 2) (t : Fin 1024) (o : Fin 256) :
    idx_main_v37 (idx_main_v38 (ix3 b t o)) = ix3 (0 : Fin 1) o (0 : Fin 1) := by
  have ho := o.isLt
  funext a
  refine Fin.ext ?_
  match a with
  | ⟨0, _⟩ => rfl
  | ⟨1, _⟩ => show ((0 * 1 + 0) * 256 + o.val) / 1 % 256 = o.val; omega
  | ⟨2, _⟩ => rfl

theorem e_in (b : Fin 2) (t : Fin 1024) (k : Fin 256) : idx_main_v1 (ix2 (row b t) k) = ix3 b t k := by
  have hb := b.isLt; have ht := t.isLt; have hk := k.isLt
  funext a
  refine Fin.ext ?_
  match a with
  | ⟨0, _⟩ => show ((b.val * 1024 + t.val) * 256 + k.val) / 262144 = b.val; omega
  | ⟨1, _⟩ => show ((b.val * 1024 + t.val) * 256 + k.val) / 256 % 1024 = t.val; omega
  | ⟨2, _⟩ => show ((b.val * 1024 + t.val) * 256 + k.val) % 256 = k.val; omega

/-! ## The two distance terms of a row pair -/

/-- The whole L1 sum of row `n` of the flattened `tanh x` and row `o` of `tanh w`. -/
theorem l1_apply (n : Fin 2048) (o : Fin 256) :
    val_main_v9 (F := Ideal) x0 x1 (ix2 n o)
      = l1 (fun k => val_main_v1 (F := Ideal) x0 (ix2 n k)) (fun k => val_main_v2 (F := Ideal) x1 (ix2 o k)) := by
  refine (val_main_v9_apply x0 x1 (ix2 n o)).trans ?_
  refine (congrArg₂ (· + ·) Ideal.ofBits_zero_f32 (Finset.sum_congr rfl fun k _ => ?_)).trans (zero_add _)
  have h5 : val_main_v5 (F := Ideal) x0 (idx_main_v9 (ix2 n o) k) = val_main_v1 (F := Ideal) x0 (ix2 n k) :=
    (val_main_v5_apply (F := Ideal) x0 _).trans ((val_main_v3_apply (F := Ideal) x0 _).trans (congrArg (val_main_v1 (F := Ideal) x0) (e_x3 n o k)))
  have h6 : val_main_v6 (F := Ideal) x1 (idx_main_v9 (ix2 n o) k) = val_main_v2 (F := Ideal) x1 (ix2 o k) :=
    (val_main_v6_apply (F := Ideal) x1 _).trans ((val_main_v4_apply (F := Ideal) x1 _).trans (congrArg (val_main_v2 (F := Ideal) x1) (e_w3 n o k)))
  exact congrArg₂ (fun u v : EReal => max (u - v) (-(u - v))) h5 h6

/-- The clamped squared distance of the same two rows. -/
theorem l2_apply (n : Fin 2048) (o : Fin 256) :
    val_main_v25 (F := Ideal) x0 x1 (ix2 n o)
      = l2 (fun k => val_main_v1 (F := Ideal) x0 (ix2 n k)) (fun k => val_main_v2 (F := Ideal) x1 (ix2 o k)) := by
  have hxsq : val_main_v16 (F := Ideal) x0 (ix2 n o)
      = ∑ k : Fin 256, val_main_v1 (F := Ideal) x0 (ix2 n k) * val_main_v1 (F := Ideal) x0 (ix2 n k) := by
    refine (val_main_v16_apply (F := Ideal) x0 _).trans ((val_main_v14_apply (F := Ideal) x0 _).trans ((val_main_v11_apply x0 _).trans ?_))
    refine (congrArg₂ (· + ·) Ideal.ofBits_zero_f32 (Finset.sum_congr rfl fun k _ => ?_)).trans (zero_add _)
    exact congrArg (val_main_v10 (F := Ideal) x0) (e_xsq n o k)
  have hwsq : val_main_v17 (F := Ideal) x1 (ix2 n o)
      = ∑ k : Fin 256, val_main_v2 (F := Ideal) x1 (ix2 o k) * val_main_v2 (F := Ideal) x1 (ix2 o k) := by
    refine (val_main_v17_apply (F := Ideal) x1 _).trans ((val_main_v15_apply (F := Ideal) x1 _).trans ((val_main_v13_apply x1 _).trans ?_))
    refine (congrArg₂ (· + ·) Ideal.ofBits_zero_f32 (Finset.sum_congr rfl fun k _ => ?_)).trans (zero_add _)
    exact congrArg (val_main_v12 (F := Ideal) x1) (e_wsq n o k)
  have hxw : val_main_v20 (F := Ideal) x0 x1 (ix2 n o)
      = ∑ k : Fin 256, val_main_v1 (F := Ideal) x0 (ix2 n k) * val_main_v2 (F := Ideal) x1 (ix2 o k) := by
    refine (val_main_v20_apply x0 x1 _).trans (Finset.sum_congr rfl fun k _ => ?_)
    exact congrArg₂ (· * ·) (congrArg (val_main_v1 (F := Ideal) x0) (e_lhs n o k))
      ((val_main_v19_apply (F := Ideal) x1 _).trans (congrArg (val_main_v2 (F := Ideal) x1) (e_rhs n o k)))
  have h21 : val_main_v21 (F := Ideal) (ix2 n o) = Ideal.ofBits .f32 0x40000000#32 := val_main_v21_apply (F := Ideal) _
  have h24 : val_main_v24 (F := Ideal) (ix2 n o) = Ideal.ofBits .f32 0x00000000#32 := val_main_v24_apply (F := Ideal) _
  show max ((val_main_v16 (F := Ideal) x0 (ix2 n o) + val_main_v17 (F := Ideal) x1 (ix2 n o))
      - val_main_v21 (F := Ideal) (ix2 n o) * val_main_v20 (F := Ideal) x0 x1 (ix2 n o)) (val_main_v24 (F := Ideal) (ix2 n o)) = _
  rw [hxsq, hwsq, hxw, h21, h24]
  rfl

/-- The 2048 × 256 stage before the cast back: `1 − ((L1·c − L2·c) + L2·c)`. -/
theorem v33_apply (n : Fin 2048) (o : Fin 256) :
    val_main_v33 (F := Ideal) x0 x1 (ix2 n o)
      = Ideal.ofBits .f32 0x3F800000#32
        - ((l1 (fun k => val_main_v1 (F := Ideal) x0 (ix2 n k)) (fun k => val_main_v2 (F := Ideal) x1 (ix2 o k))
              * Ideal.ofBits .f32 0x3B800000#32
            - l2 (fun k => val_main_v1 (F := Ideal) x0 (ix2 n k)) (fun k => val_main_v2 (F := Ideal) x1 (ix2 o k))
              * Ideal.ofBits .f32 0x3B800000#32)
          + l2 (fun k => val_main_v1 (F := Ideal) x0 (ix2 n k)) (fun k => val_main_v2 (F := Ideal) x1 (ix2 o k))
              * Ideal.ofBits .f32 0x3B800000#32) := by
  have h32 : val_main_v32 (F := Ideal) (ix2 n o) = Ideal.ofBits .f32 0x3F800000#32 := val_main_v32_apply (F := Ideal) _
  have h26 : val_main_v26 (F := Ideal) (ix2 n o) = Ideal.ofBits .f32 0x3B800000#32 := val_main_v26_apply (F := Ideal) _
  have h28 : val_main_v28 (F := Ideal) (ix2 n o) = Ideal.ofBits .f32 0x3B800000#32 := val_main_v28_apply (F := Ideal) _
  show val_main_v32 (F := Ideal) (ix2 n o)
      - ((val_main_v9 (F := Ideal) x0 x1 (ix2 n o) * val_main_v26 (F := Ideal) (ix2 n o)
            - val_main_v25 (F := Ideal) x0 x1 (ix2 n o) * val_main_v28 (F := Ideal) (ix2 n o))
          + val_main_v25 (F := Ideal) x0 x1 (ix2 n o) * val_main_v28 (F := Ideal) (ix2 n o)) = _
  rw [h32, h26, h28, l1_apply, l2_apply]

/-! ## The result -/

/-- THE REFERENCE'S RESULT is `G` of the argument arrays. -/
theorem result_eq : val_main_v39 (F := Ideal) x0 x1 x2 = G x0 x1 x2 := by
  funext i
  obtain ⟨b, t, o, rfl⟩ : ∃ (b : Fin 2) (t : Fin 1024) (o : Fin 256), i = ix3 b t o := ⟨i 0, i 1, i 2, eq_ix3 i⟩
  have h35 : val_main_v35 (F := Ideal) (ix3 b t o) = Ideal.ofBits .f32 0x3F000000#32 := val_main_v35_apply (F := Ideal) _
  have hg : val_main_v38 (F := Ideal) x2 (ix3 b t o) = x2 (ix3 (0 : Fin 1) o (0 : Fin 1)) :=
    (val_main_v38_apply (F := Ideal) x2 _).trans ((val_main_v37_apply (F := Ideal) x2 _).trans (congrArg x2 (e_gain b t o)))
  have h34 : val_main_v34 (F := Ideal) x0 x1 (ix3 b t o) = val_main_v33 (F := Ideal) x0 x1 (ix2 (row b t) o) :=
    (val_main_v34_apply (F := Ideal) x0 x1 _).trans (congrArg (val_main_v33 (F := Ideal) x0 x1) (e_out b t o))
  have ha : ∀ k : Fin 256, val_main_v1 (F := Ideal) x0 (ix2 (row b t) k) = Ideal.tanh (x0 (ix3 b t k)) := fun k =>
    (val_main_v1_apply (F := Ideal) x0 _).trans (congrArg (val_main_v0 (F := Ideal) x0) (e_in b t k))
  show (val_main_v34 (F := Ideal) x0 x1 (ix3 b t o) - val_main_v35 (F := Ideal) (ix3 b t o))
      * val_main_v38 (F := Ideal) x2 (ix3 b t o) = _
  rw [h34, h35, hg, v33_apply]
  exact entry_congr ha (fun _ => rfl) rfl

end Cert.ReferenceIdeal.RefValue

end
-- ==== Proof.lean ====
/-
  The certificate: the kernel and its reference compute one function on the extended reals.

  Both programs send `x` (2 × 1024 × 256), `w` (256 × 256) and a gain (1 × 256 × 1) to the array whose entry `(b, t, o)` is
      ((1 − ((L1·c − L2·c) + L2·c)) − ½) · gain o,      c = 2⁻⁸,
  with `L1` the L1 distance and `L2` the clamped squared L2 distance between row `(b, t)` of `tanh x` and row `o` of
  `tanh w` (`Dist.G`, Result.lean). The kernel reaches it block by block over eight grid points, its L1 sum taken in
  sixteen runs of sixteen columns from a zero start (KernelValue.lean over Payload.lean and Chunk.lean); the reference
  takes each sum whole (RefValue.lean). The one law between them is that a sum of 256 terms is the sum of its sixteen runs,
  which holds on all of the extended reals, so the precondition is never opened. The three frames are the generated ones
  (the reference's is its run with the result dropped), and the idealization rewrote nothing.
-/
import proofs.«118376_j78245714199351_2_alg».proof.Defs
import proofs.«118376_j78245714199351_2_alg».proof.Proof.Gen.Kernel
import proofs.«118376_j78245714199351_2_alg».proof.Proof.Gen.Kernel.Skeleton
import proofs.«118376_j78245714199351_2_alg».proof.Proof.Gen.Kernel.Launch
import proofs.«118376_j78245714199351_2_alg».proof.Proof.Gen.Kernel.Points
import proofs.«118376_j78245714199351_2_alg».proof.Proof.Gen.Kernel.Frame
import proofs.«118376_j78245714199351_2_alg».proof.Proof.Gen.KernelIdeal
import proofs.«118376_j78245714199351_2_alg».proof.Proof.Gen.KernelIdeal.Skeleton
import proofs.«118376_j78245714199351_2_alg».proof.Proof.Gen.KernelIdeal.Launch
import proofs.«118376_j78245714199351_2_alg».proof.Proof.Gen.KernelIdeal.Points
import proofs.«118376_j78245714199351_2_alg».proof.Proof.Gen.KernelIdeal.Frame
import proofs.«118376_j78245714199351_2_alg».proof.Proof.Gen.ReferenceIdeal
import proofs.«118376_j78245714199351_2_alg».proof.Proof.Gen.Pre_finite_inputs
import proofs.«118376_j78245714199351_2_alg».proof.Proof.Gen.ReferenceIdeal.Run
import proofs.«118376_j78245714199351_2_alg».proof.Proof.Gen.ReferenceIdeal.Read
import proofs.«118376_j78245714199351_2_alg».proof.Proof.KernelValue
import proofs.«118376_j78245714199351_2_alg».proof.Proof.RefValue
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the arguments both programs end with the result array at `Dist.G` of the arguments. -/
theorem algebraic : Cert.algebraic_KernelIdeal_ReferenceIdeal := by
  intro m ρ m' ρ' _ hagree
  refine ⟨fun c => Cert.Dist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v39_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
